-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x764 : Shape := ⟨2, ![65536, 764]⟩
abbrev S764x764 : Shape := ⟨2, ![764, 764]⟩
abbrev S764 : Shape := ⟨1, ![764]⟩
abbrev S_ : Shape := ⟨0, ![]⟩

class Facts : Prop where
  bcast_S_S65536x764 : S_.BroadcastsInDim S65536x764 (![] : Fin 0 → Fin S65536x764.rank)
  reducesTo_S65536x764_S_d0_1 : S65536x764.ReducesTo [0, 1] S_
  h_S_ : 0 < S_.numel
  bcast_S_S764x764 : S_.BroadcastsInDim S764x764 (![] : Fin 0 → Fin S764x764.rank)
  reducesTo_S764x764_S_d0_1 : S764x764.ReducesTo [0, 1] S_
  bcast_S_S764 : S_.BroadcastsInDim S764 (![] : Fin 0 → Fin S764.rank)
  reducesTo_S764_S_d0 : S764.ReducesTo [0] S_

variable [Facts]

def fn {F : FTy → Type} [FloatOps F] (main_arg0 : FVec F S65536x764 .f32) (main_arg1 : FVec F S764x764 .f32) (main_arg2 : FVec F S764 .f32) : IVec S_ 1 :=
  let main_v0 : FVec F S65536x764 .f32 := Host.absf main_arg0
  let main_cst : FVec F S_ .f32 := constant S_ .f32 0x7F800000#32
  let main_v1 : FVec F S65536x764 .f32 := broadcastInDim S65536x764 ![] bcast_S_S65536x764 main_cst
  let main_v2 : IVec S65536x764 1 := cmpf .olt main_v0 main_v1
  let main_c : IVec S_ 1 := constantI S_ 1 1#1
  let main_v3 : IVec S_ 1 := (fun x v => Host.reduce IntOp.andi x v reducesTo_S65536x764_S_d0_1 h_S_) main_v2 main_c
  let main_v4 : FVec F S764x764 .f32 := Host.absf main_arg1
  let main_cst_0 : FVec F S_ .f32 := constant S_ .f32 0x7F800000#32
  let main_v5 : FVec F S764x764 .f32 := broadcastInDim S764x764 ![] bcast_S_S764x764 main_cst_0
  let main_v6 : IVec S764x764 1 := cmpf .olt main_v4 main_v5
  let main_c_1 : IVec S_ 1 := constantI S_ 1 1#1
  let main_v7 : IVec S_ 1 := (fun x v => Host.reduce IntOp.andi x v reducesTo_S764x764_S_d0_1 h_S_) main_v6 main_c_1
  let main_v8 : IVec S_ 1 := andi main_v3 main_v7
  let main_v9 : FVec F S764 .f32 := Host.absf main_arg2
  let main_cst_2 : FVec F S_ .f32 := constant S_ .f32 0x7F800000#32
  let main_v10 : FVec F S764 .f32 := broadcastInDim S764 ![] bcast_S_S764 main_cst_2
  let main_v11 : IVec S764 1 := cmpf .olt main_v9 main_v10
  let main_c_3 : IVec S_ 1 := constantI S_ 1 1#1
  let main_v12 : IVec S_ 1 := (fun x v => Host.reduce IntOp.andi x v reducesTo_S764_S_d0 h_S_) main_v11 main_c_3
  let main_v13 : IVec S_ 1 := andi main_v8 main_v12
  main_v13
-- ==== Kernel.lean ====
abbrev S65536x764 : Shape := ⟨2, ![65536, 764]⟩
abbrev S764x764 : Shape := ⟨2, ![764, 764]⟩
abbrev S764 : Shape := ⟨1, ![764]⟩
abbrev S1x764 : Shape := ⟨2, ![1, 764]⟩
abbrev S1024x764 : Shape := ⟨2, ![1024, 764]⟩

abbrev nBuf : Space → Nat
  | .hbm => 7
  | .vmem => 6
  | .smem => 0
  | _ => 0

abbrev bufTy : (tb : Table) → Fin (tcTables nBuf tb) → BufTy
  | .hbm, ⟨0, _⟩ => ⟨S65536x764, .f32⟩
  | .hbm, ⟨1, _⟩ => ⟨S764x764, .f32⟩
  | .hbm, ⟨2, _⟩ => ⟨S764, .f32⟩
  | .hbm, ⟨3, _⟩ => ⟨S764x764, .f32⟩
  | .hbm, ⟨4, _⟩ => ⟨S764x764, .bf16⟩
  | .hbm, ⟨5, _⟩ => ⟨S1x764, .f32⟩
  | .hbm, ⟨6, _⟩ => ⟨S65536x764, .f32⟩
  | .local _ .vmem, ⟨0, _⟩ => ⟨S1024x764, .f32⟩
  | .local _ .vmem, ⟨1, _⟩ => ⟨S1024x764, .f32⟩
  | .local _ .vmem, ⟨2, _⟩ => ⟨S764x764, .bf16⟩
  | .local _ .vmem, ⟨3, _⟩ => ⟨S1x764, .f32⟩
  | .local _ .vmem, ⟨4, _⟩ => ⟨S1024x764, .f32⟩
  | .local _ .vmem, ⟨5, _⟩ => ⟨S1024x764, .f32⟩
  | _, _ => ⟨S65536x764, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x764 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S764x764 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x764 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x764 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S764x764_S764x764_1_0 : S764x764.Transposes [1, 0] S764x764
  bitsLt_bf16_f32 : FTy.bits .bf16 < FTy.bits .f32
  shapeCasts_S764_S1x764 : S764.ShapeCasts S1x764
  iota_S764x764_d0_w32 : S764x764.Iotas .tc 32 [0]
  iota_S764x764_d1_w32 : S764x764.Iotas .tc 32 [1]
  natLt_1_32 : 1 < 32
  inb_S764x764_S764x764_0_0 : ∀ a, (![0, 0] : Fin 2 → Nat) a + S764x764.size a ≤ S764x764.size a
  h_S764x764 : 0 < S764x764.numel
  shapeCasts_S764x764_S764x764 : S764x764.ShapeCasts S764x764
  inb_S1024x764_S1024x764_0_0 : ∀ a, (![0, 0] : Fin 2 → Nat) a + S1024x764.size a ≤ S1024x764.size a
  h_S1024x764 : 0 < S1024x764.numel
  inb_S1x764_S1x764_0_0 : ∀ a, (![0, 0] : Fin 2 → Nat) a + S1x764.size a ≤ S1x764.size a
  h_S1x764 : 0 < S1x764.numel
  shapeCasts_S1x764_S1x764 : S1x764.ShapeCasts S1x764
  broadcasts_S1x764_S1024x764 : S1x764.Broadcasts S1024x764
  dot_S1024x764_S764x764_S1024x764_1_0_0_1_n_n_wf : DotDims.WF S1024x764 S764x764 S1024x764 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x764.size a ≤ S65536x764.size a
  hwx0_0 : ∀ i : grid0.Coords, EltTy.bits .f32 = 32 ∨ (Rect.block (s := S65536x764) S1024x764.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S764x764.size a ≤ S764x764.size a
  hwx0_1 : ∀ i : grid0.Coords, EltTy.bits .bf16 = 32 ∨ (Rect.block (s := S764x764) S764x764.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x764.size a ≤ S1x764.size a
  hwx0_2 : ∀ i : grid0.Coords, EltTy.bits .f32 = 32 ∨ (Rect.block (s := S1x764) S1x764.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x764.size a ≤ S65536x764.size a
  hwx0_3 : ∀ i : grid0.Coords, EltTy.bits .f32 = 32 ∨ (Rect.block (s := S65536x764) S1024x764.size (cc0_transform_3 i) (hinb0_3 i)).WholeWords (EltTy.packing .f32)

variable [Facts₀]

def dot_S1024x764_S764x764_S1024x764_1_0_0_1_n_n : DotDims S1024x764 S764x764 S1024x764 where
  lhsContracting := [1]
  rhsContracting := [0]
  lhsNonContracting := [0]
  rhsNonContracting := [1]
  lhsBatch := []
  rhsBatch := []
  wf := dot_S1024x764_S764x764_S1024x764_1_0_0_1_n_n_wf

abbrev win0_0 : Pipeline.Window sig grid0 :=
  Pipeline.Window.ofSpec (Memref.whole main_arg0) S1024x764.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S764x764.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x764.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x764.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x764 : Shape := ⟨2, ![65536, 764]⟩
abbrev S764x764 : Shape := ⟨2, ![764, 764]⟩
abbrev S764 : Shape := ⟨1, ![764]⟩
abbrev S_ : Shape := ⟨0, ![]⟩
abbrev S1x764 : Shape := ⟨2, ![1, 764]⟩

abbrev nBuf : Space → Nat
  | .hbm => 19
  | .vmem => 0
  | .smem => 0
  | _ => 0

abbrev bufTy : (tb : Table) → Fin (tcTables nBuf tb) → BufTy
  | .hbm, ⟨0, _⟩ => ⟨S65536x764, .f32⟩
  | .hbm, ⟨1, _⟩ => ⟨S764x764, .f32⟩
  | .hbm, ⟨2, _⟩ => ⟨S764, .f32⟩
  | .hbm, ⟨3, _⟩ => ⟨S_, .f32⟩
  | .hbm, ⟨4, _⟩ => ⟨S764x764, .f32⟩
  | .hbm, ⟨5, _⟩ => ⟨S764x764, .i32⟩
  | .hbm, ⟨6, _⟩ => ⟨S_, .i32⟩
  | .hbm, ⟨7, _⟩ => ⟨S764x764, .i32⟩
  | .hbm, ⟨8, _⟩ => ⟨S764x764, .i32⟩
  | .hbm, ⟨9, _⟩ => ⟨S764x764, .i32⟩
  | .hbm, ⟨10, _⟩ => ⟨S764x764, .i1⟩
  | .hbm, ⟨11, _⟩ => ⟨S_, .f32⟩
  | .hbm, ⟨12, _⟩ => ⟨S764x764, .f32⟩
  | .hbm, ⟨13, _⟩ => ⟨S764x764, .f32⟩
  | .hbm, ⟨14, _⟩ => ⟨S764x764, .f32⟩
  | .hbm, ⟨15, _⟩ => ⟨S65536x764, .f32⟩
  | .hbm, ⟨16, _⟩ => ⟨S1x764, .f32⟩
  | .hbm, ⟨17, _⟩ => ⟨S65536x764, .f32⟩
  | .hbm, ⟨18, _⟩ => ⟨S65536x764, .f32⟩
  | _, _ => ⟨S65536x764, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  bcast_S_S764x764 : S_.BroadcastsInDim S764x764 (![] : Fin 0 → Fin S764x764.rank)
  bcast_S764_S1x764_1 : S764.BroadcastsInDim S1x764 (![1] : Fin 1 → Fin S1x764.rank)
  bcast_S1x764_S65536x764_0_1 : S1x764.BroadcastsInDim S65536x764 (![0, 1] : Fin 2 → Fin S65536x764.rank)
  dot_S65536x764_S764x764_S65536x764_1_1_0_0_n_n_wf : DotDims.WF S65536x764 S764x764 S65536x764 [1] [1] [0] [0] [] []

variable [Facts₀]

def dot_S65536x764_S764x764_S65536x764_1_1_0_0_n_n : DotDims S65536x764 S764x764 S65536x764 where
  lhsContracting := [1]
  rhsContracting := [1]
  lhsNonContracting := [0]
  rhsNonContracting := [0]
  lhsBatch := []
  rhsBatch := []
  wf := dot_S65536x764_S764x764_S65536x764_1_1_0_0_n_n_wf

class Facts : Prop extends Facts₀ where

variable [Facts]
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.StrictLower.lean ====
/-
  The function both programs compute, and the two ways they build its mask.

  For an input row `x[r, ·]` of 764 numbers, a weight matrix `W[n, d]` and a bias `b[n]`, output position `n` sees only
  the input positions strictly before it:

      out[r, n] = Σ_{d < 764} x[r, d] · (W[n, d] · keep n d) + b[n],        keep n d = 1 if d < n, else 0.

  The sum runs over all 764 positions with the mask as a factor, which is how both programs spell it; nothing is
  rearranged, so no law of the extended reals beyond the definitions is used and no finiteness is needed.

  The mask is computed on 32-bit signed words.  One program compares the two positions directly (`d <ₛ n`), widens the
  bit to a word and converts it to a float; the other adds `-1` to `n` and asks whether the result is `≥ₛ d`, then selects
  between the float constants one and zero.  Positions are below 764, far from the word range's ends, so the signed
  readings are the numbers themselves, `n - 1 ≥ d` is `d < n`, and both masks are `keep`.
-/
import Idealize.ShloMosaic.PureOps.Ideal
import Idealize.ShloMosaic.PureOps.IdealRules
import Idealize.ShloMosaic.Lib.ValueIdx
import Idealize.ShloMosaic.Lib.WordArith
import Idealize.ShloMosaic.Lib.KernelVsHost

noncomputable section

namespace Cert.StrictLower

open Idealize.ShloMosaic Idealize.ShloMosaic.ValueIdx Idealize.ShloMosaic.WordArith

/-- One where input position `d` lies strictly before output position `n`, zero elsewhere. -/
def keep (n d : Fin 764) : EReal := if d.val < n.val then 1 else 0

/-- Entry `(r, n)` of the result: the row's products with the masked weights of output `n`, summed, plus the bias. -/
def entry (x : (⟨2, ![65536, 764]⟩ : Shape).Idx → EReal) (W : (⟨2, ![764, 764]⟩ : Shape).Idx → EReal)
    (b : (⟨1, ![764]⟩ : Shape).Idx → EReal) (r : Fin 65536) (n : Fin 764) : EReal :=
  (∑ d : Fin 764, x (ix2 r d) * (W (ix2 n d) * keep n d)) + b (ix1 n)

/-- The whole result array as one function of the three argument arrays. -/
def affine (x : (⟨2, ![65536, 764]⟩ : Shape).Idx → EReal) (W : (⟨2, ![764, 764]⟩ : Shape).Idx → EReal)
    (b : (⟨1, ![764]⟩ : Shape).Idx → EReal) : (⟨2, ![65536, 764]⟩ : Shape).Idx → EReal :=
  fun i => entry x W b ⟨(i 0).val, idx2_lt0 i⟩ ⟨(i 1).val, idx2_lt1 i⟩

theorem affine_ix2 (x : (⟨2, ![65536, 764]⟩ : Shape).Idx → EReal) (W : (⟨2, ![764, 764]⟩ : Shape).Idx → EReal)
    (b : (⟨1, ![764]⟩ : Shape).Idx → EReal) (r : Fin 65536) (n : Fin 764) : affine x W b (ix2 r n) = entry x W b r n := rfl

/-! ## The float constants -/

theorem one_f32 : Ideal.ofBits .f32 0x3F800000#32 = 1 := IdealRules.sign_bit.ideal_onePat .f32
theorem zero_f32 : Ideal.ofBits .f32 0x00000000#32 = 0 := IdealRules.sign_bit.ideal_zero .f32

/-! ## Positions as signed words -/

/-- A position below 764, as a 32-bit word, reads signed as itself. -/
theorem toInt_pos (k : Fin 764) : (BitVec.ofNat 32 k.val).toInt = (k.val : ℤ) :=
  toInt_ofNat_small _ (by have := k.isLt; omega)

/-- The all-ones word reads signed as `-1`. -/
theorem toInt_allOnes : (4294967295#32 : BitVec 32).toInt = -1 := by decide

/-- `n + (-1)` on words is `n - 1` on integers: nothing wraps. -/
theorem toInt_pred (n : Fin 764) : (BitVec.ofNat 32 n.val + 4294967295#32).toInt = (n.val : ℤ) - 1 := by
  have hn := toInt_pos n
  have hlt := n.isLt
  rw [toInt_add_of_bounds _ _ (by rw [hn, toInt_allOnes]; omega) (by rw [hn, toInt_allOnes]; omega), hn, toInt_allOnes]
  omega

/-! ## The two masks -/

/-- A true comparison's bit is the number one, a false one's zero. -/
theorem bit_true : (BitVec.ofBool true).toNat = 1 := rfl
theorem bit_false : (BitVec.ofBool false).toNat = 0 := rfl

/-- The direct comparison `d <ₛ n`, widened to a word and converted to a float, is `keep n d`. -/
theorem compare_keep (n d : Fin 764) :
    (FloatOps.sitofp (F := Ideal) .f32 ((IntOp.cmpi .slt (BitVec.ofNat 32 d.val) (BitVec.ofNat 32 n.val)).setWidth 32) : EReal)
      = keep n d := by
  show ((((IntOp.cmpi .slt (BitVec.ofNat 32 d.val) (BitVec.ofNat 32 n.val)).setWidth 32).toInt : ℝ) : EReal) = keep n d
  rw [toInt_setWidth_bit]
  unfold keep IntOp.cmpi
  by_cases h : d.val < n.val
  · have hb : (BitVec.ofNat 32 d.val).slt (BitVec.ofNat 32 n.val) = true := by
      rw [BitVec.slt_iff_toInt_lt, toInt_pos, toInt_pos]; exact_mod_cast h
    simp only [hb, if_pos h, bit_true]
    norm_num
  · have hb : (BitVec.ofNat 32 d.val).slt (BitVec.ofNat 32 n.val) = false := by
      rw [Bool.eq_false_iff, ne_eq, BitVec.slt_iff_toInt_lt, toInt_pos, toInt_pos]; exact_mod_cast h
    simp only [hb, if_neg h, bit_false]
    norm_num

/-- The selection between one and zero on `n + (-1) ≥ₛ d` is `keep n d`. -/
theorem select_keep (n d : Fin 764) :
    Scalar.select (IntOp.cmpi .sge (IntOp.addi (BitVec.ofNat 32 n.val) 4294967295#32) (BitVec.ofNat 32 d.val))
      (Ideal.ofBits .f32 0x3F800000#32) (Ideal.ofBits .f32 0x00000000#32) = keep n d := by
  unfold keep Scalar.select IntOp.cmpi IntOp.addi
  rw [one_f32, zero_f32]
  have hd := d.isLt
  have hn := n.isLt
  by_cases h : d.val < n.val
  · have hb : (BitVec.ofNat 32 d.val).sle (BitVec.ofNat 32 n.val + 4294967295#32) = true := by
      rw [BitVec.sle_iff_toInt_le, toInt_pos, toInt_pred]; omega
    simp only [hb, if_pos h]
    rfl
  · have hb : (BitVec.ofNat 32 d.val).sle (BitVec.ofNat 32 n.val + 4294967295#32) = false := by
      rw [Bool.eq_false_iff, ne_eq, BitVec.sle_iff_toInt_le, toInt_pos, toInt_pred]; omega
    simp only [hb, if_neg h]
    rfl

end Cert.StrictLower

end
-- ==== Proof.ReferenceValue.lean ====
/-
  The reference computes the masked affine map.

  Its program builds a 764 × 764 matrix of ones, keeps the entries strictly below the diagonal (entry `(n, d)` is kept when
  `n + (-1) ≥ d` on signed words, zero otherwise), multiplies the weights by it entry by entry, contracts the input rows
  with the masked weights over the weights' second axis, and adds the bias, copied first to a one-row matrix and then down
  the rows.  Read one stage at a time at an entry `(r, n)`, over the extended reals:

      result[r, n] = Σ_{d < 764} x[r, d] · (W[n, d] · keep n d) + b[n].
-/
import proofs.«163285_j65919158059493_1_alg».proof.Proof.ReferenceRead
import proofs.«163285_j65919158059493_1_alg».proof.Proof.StrictLower

noncomputable section

namespace Cert.ReferenceIdeal.Affine

open Cert.ReferenceIdeal Cert.ReferenceIdeal.ReadP Idealize.ShloMosaic Idealize.ShloMosaic.ValueIdx Cert.StrictLower

/-- The kept-below-the-diagonal matrix of ones, at row `n` and column `d`, is `keep n d`. -/
theorem tril_entry (n d : Fin 764) : val_main_v1 (F := Ideal) (ix2 n d) = keep n d := by
  rw [val_main_v1_apply, val_main_call0_v4_apply, val_main_call0_v2_apply, val_main_call0_v0_apply, val_main_call0_v1_apply,
    val_main_call0_c_apply, val_main_call0_v3_apply, val_main_v0_apply, val_main_cst_apply, val_main_call0_v5_apply,
    val_main_call0_cst_apply]
  exact select_keep n d

/-- The contraction reads the input at row `r`, position `d`, -/
theorem lidx_eq (r : Fin 65536) (n d : Fin 764) : lidx_main_v3 (ix2 r n) d = ix2 r d :=
  funext fun a => Fin.ext (by match a with | ⟨0, _⟩ => rfl | ⟨1, _⟩ => rfl)

/-- and the masked weights at output `n`, position `d`. -/
theorem ridx_eq (r : Fin 65536) (n d : Fin 764) : ridx_main_v3 (ix2 r n) d = ix2 n d :=
  funext fun a => Fin.ext (by match a with | ⟨0, _⟩ => rfl | ⟨1, _⟩ => rfl)

/-- The bias is read at the output position. -/
theorem bidx_eq (r : Fin 65536) (n : Fin 764) : idx_main_v4 (idx_main_v5 (ix2 r n)) = ix1 n :=
  funext fun a => Fin.ext (by match a with | ⟨0, _⟩ => rfl)

/-- The reference's result, as a function of the three arguments, is the masked affine map. -/
theorem result_eq (x : (⟨S65536x764, .f32⟩ : BufTy).Contents (Elt Ideal)) (W : (⟨S764x764, .f32⟩ : BufTy).Contents (Elt Ideal))
    (b : (⟨S764, .f32⟩ : BufTy).Contents (Elt Ideal)) :
    val_main_v6 (F := Ideal) x W b = affine x W b := by
  funext i
  obtain ⟨r, n, rfl⟩ : ∃ (r : Fin 65536) (n : Fin 764), i = ix2 r n := ⟨i 0, i 1, eq_ix2 i⟩
  rw [affine_ix2, val_main_v6_apply, val_main_v3_apply, val_main_v5_apply, val_main_v4_apply, bidx_eq]
  unfold entry
  show (∑ k : Fin 764, x (lidx_main_v3 (ix2 r n) k) * val_main_v2 (F := Ideal) W (ridx_main_v3 (ix2 r n) k)) + b (ix1 n) = _
  refine congrArg₂ (· + ·) (Finset.sum_congr rfl fun d _ => ?_) rfl
  rw [lidx_eq, ridx_eq, val_main_v2_apply, tril_entry]
  rfl

end Cert.ReferenceIdeal.Affine

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KernelEntry.lean ====
/-
  What one grid point stores, entry by entry.

  At a grid point the body holds a block of 1024 input rows `x`, the whole 764 × 764 matrix `w` (laid out so that
  `w[d, n]` multiplies input position `d` into output position `n`) and the bias as a one-row matrix.  It builds the mask
  from the two position counters of a 764 × 764 grid — row counter `d`, column counter `n`, the bit of `d < n` widened
  and converted — multiplies `w` by it entry by entry, takes the matrix product of the rows with the masked matrix into a
  zero accumulator, and adds the bias row to every row.  Read at entry `(p, q)` over the extended reals, where changes
  of float format are the identity:

      stored[p, q] = Σ_{d < 764} x[p, d] · (w[d, q] · keep q d) + bias[0, q].
-/
import proofs.«163285_j65919158059493_1_alg».proof.Proof.Gen.KernelIdeal.Skeleton
import proofs.«163285_j65919158059493_1_alg».proof.Proof.StrictLower
import proofs.«163285_j65919158059493_1_alg».proof.Proof.LibPlainDot
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.ValueIdx Cert.StrictLower

/-- The mask built from the two position counters, at row `d` and column `n`, is `keep n d`. -/
theorem mask_entry (h0 : S764x764.Iotas .tc 32 [0]) (h1 : S764x764.Iotas .tc 32 [1]) (hw : 1 < 32)
    (hb : FTy.bits .bf16 < FTy.bits .f32) (d n : Fin 764) :
    (truncf (F := Ideal) .bf16 (sitofp .f32 (extui 32 (cmpi .slt (iota .tc S764x764 32 [0] h0) (iota .tc S764x764 32 [1] h1)) hw)) hb)
      (ix2 d n) = keep n d := by
  show FloatOps.sitofp (F := Ideal) .f32
    ((IntOp.cmpi .slt (iota .tc S764x764 32 [0] h0 (ix2 d n)) (iota .tc S764x764 32 [1] h1 (ix2 d n))).setWidth 32) = keep n d
  rw [iota_single_apply, iota_single_apply]
  exact compare_keep n d

/-- The bias row copied down the 1024 rows, at `(p, q)`, is the bias at `q`. -/
theorem bias_entry (bb : Vec Ideal S1x764 .f32) (hc : S1x764.ShapeCasts S1x764) (hbr : S1x764.Broadcasts S1024x764)
    (p : Fin 1024) (q : Fin 764) :
    broadcastTo S1024x764 (shapeCast S1x764 bb hc) hbr (ix2 p q) = bb (ix2 (0 : Fin 1) q) := by
  rw [shapeCast_self]
  refine broadcastTo_apply bb hbr (ix2 p q) (ix2 (0 : Fin 1) q) fun a => ?_
  match a with
  | ⟨0, _⟩ => show (0 : ℕ) = if (1 : ℕ) = 1 then 0 else p.val; rw [if_pos rfl]
  | ⟨1, _⟩ => show q.val = if (764 : ℕ) = 1 then 0 else q.val; rw [if_neg (by decide)]

/-- The value the body stores, at entry `(p, q)` of the block. -/
theorem payload_entry (w : Vec Ideal S764x764 .bf16) (x : Vec Ideal S1024x764 .f32) (bb : Vec Ideal S1x764 .f32)
    (p : Fin 1024) (q : Fin 764) :
    k0_pay1 (F := Ideal) w x bb (ix2 p q)
      = (∑ d : Fin 764, x (ix2 p d) * (w (ix2 d q) * keep q d)) + bb (ix2 (0 : Fin 1) q) := by
  unfold k0_pay1
  dsimp only
  refine congrArg₂ (· + ·) ?_ (bias_entry bb _ _ p q)
  refine (Cert.PlainDot.matmul_zero_apply _ rfl none _ _ p q).trans ?_
  refine Finset.sum_congr rfl fun d _ => ?_
  refine congrArg₂ (· * ·) rfl ?_
  refine congrArg₂ (· * ·) ?_ (mask_entry _ _ _ _ d q)
  rw [shapeCast_self]

end Cert.KernelIdeal.Entry

end
-- ==== Proof.KernelValue.lean ====
/-
  The whole result array of the kernel's program.

  Before the launch the host transposes the weights (so the staged matrix at `(d, n)` is `W[n, d]`; the change to a
  shorter float format is the identity over the extended reals) and views the bias as a one-row matrix (its entry `(0, n)`
  is `b[n]`).  The grid has 64 points; point `t` is handed rows `1024·t … 1024·t + 1023` of the input, the whole staged
  matrix and the whole bias row, and writes rows `1024·t … 1024·t + 1023` of the result.  Entry `(p, q)` of what point `t`
  writes is the masked sum plus bias of the kernel's body at that entry, which, with the staged arrays read back as the
  arguments, is entry `(1024·t + p, q)` of the masked affine map of the three arguments.  Row `r` of the result is
  written by point `r / 1024`, so the 64 blocks cover the array and the array after the run is that map.
-/
import proofs.«163285_j65919158059493_1_alg».proof.Proof.Gen.KernelIdeal.Value
import proofs.«163285_j65919158059493_1_alg».proof.Proof.KernelEntry
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.StrictLower Cert.KernelIdeal.Entry
open Idealize.ShloMosaic.Pipeline (Dat)

variable (m : (ℓ : Loc nD τ sig) → Buf (Elt Ideal) ℓ) (ρ : Dev nD → PrngReg)

/-! ## The staged arrays, read back as the arguments -/

/-- The staged matrix at `(d, n)` is the weight `W[n, d]`. -/
theorem staged_weights (c : Dev nD) (d n : Fin 764) :
    V m c main_v1 (ix2 d n) = m ((c : Thread nD τ).loc main_arg1) (ix2 n d) := by
  have e : V m c main_v1 = (truncf (F := Ideal) .bf16
      (transpose S764x764 [1, 0] (m ((c : Thread nD τ).loc main_arg1)) Facts₀.transposes_S764x764_S764x764_1_0)
      Facts₀.bitsLt_bf16_f32 : (⟨S764x764, .bf16⟩ : BufTy).Contents (Elt Ideal)) := by
    dsimp only [Gen.V, Gen.hostOps0]; after_results <;> rfl
  rw [e]
  exact transpose_apply [1, 0] (m ((c : Thread nD τ).loc main_arg1)) Facts₀.transposes_S764x764_S764x764_1_0 (ix2 d n) (ix2 n d)
    (fun b => by match b with | ⟨0, _⟩ => rfl | ⟨1, _⟩ => rfl)

/-- The staged bias row at `(0, n)` is the bias `b[n]`. -/
theorem staged_bias (c : Dev nD) (n : Fin 764) :
    V m c main_v2 (ix2 (0 : Fin 1) n) = m ((c : Thread nD τ).loc main_arg2) (ix1 n) := by
  have e : V m c main_v2 = (shapeCast S1x764 (m ((c : Thread nD τ).loc main_arg2)) Facts₀.shapeCasts_S764_S1x764 :
      (⟨S1x764, .f32⟩ : BufTy).Contents (Elt Ideal)) := by
    dsimp only [Gen.V, Gen.hostOps0]; after_results <;> rfl
  rw [e]
  refine (shapeCast_addUnit_apply ![764] (m ((c : Thread nD τ).loc main_arg2)) Facts₀.shapeCasts_S764_S1x764 (ix2 (0 : Fin 1) n)).trans ?_
  exact congrArg (m ((c : Thread nD τ).loc main_arg2)) (funext fun a => by match a with | ⟨0, _⟩ => rfl)

/-! ## The blocks a point is handed -/

/-- The printed index maps over the 64 points: the input rows and the result rows move with the point, the staged matrix
    and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, d)` of point `t`'s input block is the input at row `1024·t + p`, position `d`. -/
theorem rows_entry (c : Dev nD) (t : Fin cfg0.N) (p : Fin 1024) (d : Fin 764) (k : S65536x764.Idx)
    (hk0 : (k 0).val = t.val * 1024 + p.val) (hk1 : (k 1).val = d.val) :
    (iblk m c 0 t : Vec Ideal S1024x764 .f32) (ix2 p d) = m ((c : Thread nD τ).loc main_arg0) k := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = (k 0).val; rw [e0, hk0]; omega
  | ⟨1, _⟩ => show win0_0.index t (1 : Fin 2) * 764 + 1 * d.val = (k 1).val; rw [e1, hk1]; omega

/-- Entry `(d, n)` of the matrix block, at every point, is the weight `W[n, d]`. -/
theorem weights_entry (c : Dev nD) (t : Fin cfg0.N) (d n : Fin 764) :
    (iblk m c 1 t : Vec Ideal S764x764 .bf16) (ix2 d n) = m ((c : Thread nD τ).loc main_arg1) (ix2 n d) := by
  obtain ⟨-, -, e0, e1, -⟩ := idx_facts t
  unfold iblk
  rw [View.read_apply]
  show V m c main_v1 _ = _
  refine (congrArg (V m c main_v1) (funext fun a => Fin.ext ?_)).trans (staged_weights m c d n)
  match a with
  | ⟨0, _⟩ => show win0_1.index t (0 : Fin 2) * 764 + 1 * d.val = d.val; rw [e0]; omega
  | ⟨1, _⟩ => show win0_1.index t (1 : Fin 2) * 764 + 1 * n.val = n.val; rw [e1]; omega

/-- Entry `(0, n)` of the bias block, at every point, is the bias `b[n]`. -/
theorem bias_entry (c : Dev nD) (t : Fin cfg0.N) (n : Fin 764) :
    (iblk m c 2 t : Vec Ideal S1x764 .f32) (ix2 (0 : Fin 1) n) = m ((c : Thread nD τ).loc main_arg2) (ix1 n) := by
  obtain ⟨-, -, -, -, e0, e1, -⟩ := idx_facts t
  unfold iblk
  rw [View.read_apply]
  show V m c main_v2 _ = _
  refine (congrArg (V m c main_v2) (funext fun a => Fin.ext ?_)).trans (staged_bias m c n)
  match a with
  | ⟨0, _⟩ => show win0_2.index t (0 : Fin 2) * 1 + 1 * 0 = 0; rw [e0]
  | ⟨1, _⟩ => show win0_2.index t (1 : Fin 2) * 764 + 1 * n.val = n.val; rw [e1]; omega

/-! ## What a point writes -/

/-- Entry `j` of the value point `t` stores is the masked affine map of the arguments at the array index `k` whose row is
    `1024·t` plus `j`'s row and whose column is `j`'s. -/
theorem point_entry (c : Dev nD) (t : Fin cfg0.N) (j : S1024x764.Idx) (k : S65536x764.Idx)
    (hk0 : (k 0).val = t.val * 1024 + (j 0).val) (hk1 : (k 1).val = (j 1).val) :
    k0_pay1 (F := Ideal) (iblk m c 1 t) (iblk m c 0 t) (iblk m c 2 t) j
      = affine (m ((c : Thread nD τ).loc main_arg0)) (m ((c : Thread nD τ).loc main_arg1)) (m ((c : Thread nD τ).loc main_arg2)) k := by
  obtain ⟨p, q, rfl⟩ : ∃ (p : Fin 1024) (q : Fin 764), j = ix2 p q := ⟨j 0, j 1, eq_ix2 j⟩
  have hq : (⟨(k 1).val, idx2_lt1 k⟩ : Fin 764) = q := Fin.ext hk1
  refine (payload_entry (iblk m c 1 t) (iblk m c 0 t) (iblk m c 2 t) p q).trans ?_
  show _ = entry _ _ _ ⟨(k 0).val, idx2_lt0 k⟩ ⟨(k 1).val, idx2_lt1 k⟩
  rw [hq]
  unfold entry
  refine congrArg₂ (· + ·) (Finset.sum_congr rfl fun d _ => ?_) (bias_entry m c t q)
  refine congrArg₂ (· * ·) (rows_entry m c t p d (ix2 ⟨(k 0).val, idx2_lt0 k⟩ d) hk0 rfl) ?_
  exact congrArg (· * keep q d) (weights_entry m c t d q)

theorem hz : (![0, 0] : Fin 2 → Nat) = fun _ => 0 := funext fun a => by fin_cases a <;> rfl

/-- What point `t` writes back is block `t` of the masked affine map of the arguments. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S764x764) hz, View.ld_unit_zero (S := S1024x764) hz, View.ld_unit_zero (S := S1x764) hz]
  obtain ⟨-, -, -, -, -, -, e0, e1⟩ := idx_facts t
  funext j
  show k0_pay1 (F := Ideal) (iblk m c 1 t) (iblk m c 0 t) (iblk m c 2 t) j = affine _ _ _ (((cfg0.win 3).blk t).view.emb j)
  refine point_entry m c t j _ ?_ ?_
  · show win0_3.index t (0 : Fin 2) * 1024 + 1 * (j 0).val = t.val * 1024 + (j 0).val; rw [e0]; omega
  · show win0_3.index t (1 : Fin 2) * 764 + 1 * (j 1).val = (j 1).val; rw [e1]; omega

/-! ## The blocks cover the array -/

/-- An index of the array is in point `t`'s block when each coordinate is in the block's range on its axis. -/
theorem mem_blk (t : Fin cfg0.N) (i : S65536x764.Idx) :
    i ∈ ((cfg0.win 3).blk t).view.set ↔ ∀ a : Fin 2, win0_3.index t a * S1024x764.size a ≤ (i a).val
      ∧ (i a).val < win0_3.index t a * S1024x764.size a + S1024x764.size a := by
  show i ∈ ((View.whole main_v3).slice (win0_3.rect t)).set ↔ _
  rw [View.set_slice_whole, Rect.mem_set_unit]
  exact Iff.rfl

/-- Row `r` is written by point `r / 1024`. -/
theorem cover (i : S65536x764.Idx) : ∃ t : Fin cfg0.N, (cfg0.win 3).flush t = true ∧ i ∈ ((cfg0.win 3).blk t).view.set := by
  have hN : cfg0.N = 64 := N_0
  have hi0 : (i 0).val < 65536 := (i 0).isLt
  have hi1 : (i 1).val < 764 := (i 1).isLt
  obtain ⟨t, ht⟩ : ∃ t : Fin cfg0.N, t.val = (i 0).val / 1024 := ⟨⟨(i 0).val / 1024, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 764 ≤ (i 1).val ∧ (i 1).val < win0_3.index t (1 : Fin 2) * 764 + 764
    rw [e1]; omega

/-- The result array after the run is the masked affine map of the three arguments. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The run -/

/-- Every weakly fair execution of the kernel's program ends with the result array at the masked affine map of the
    arguments and the arguments unchanged. -/
theorem run : θ_run defs (onTc (τ := τ) (main (F := Ideal))) ⟨m, fun _ => 0, ρ⟩ fun r => ∀ c : Dev nD,
      r.2.mem ((c : Thread nD τ).loc main_v3)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.lean ====
/-
  A strictly causal affine layer: `out[r, n] = Σ_{d < n} x[r, d] · W[n, d] + b[n]` for 65536 rows of 764 numbers — output
  position `n` sees only the input positions before it.

  Both programs compute it as a masked full sum, `Σ_{d < 764} x[r, d] · (W[n, d] · keep n d) + b[n]` with `keep n d` one
  when `d < n` and zero otherwise (Proof/StrictLower.lean, where the map is stated once and both ways of building the mask
  on signed 32-bit words are shown to give `keep`).  One program transposes the weights on the host, hands a grid of 64
  points 1024 rows each together with the whole transposed matrix and the bias row, and at each point masks the matrix by
  comparing a row counter with a column counter, multiplies the rows into it and adds the bias row
  (Proof/KernelEntry.lean: one stored entry; Proof/KernelValue.lean: the 64 blocks are the blocks of the one map and
  cover the array).  The other keeps the strictly lower triangle of a matrix of ones, multiplies the weights by it,
  contracts the rows with the result and adds the bias (Proof/ReferenceValue.lean, one stage at a time).  Over the
  extended reals a change of float format is the identity, so the two results are the same sum term by term: nothing is
  reordered or distributed, and the inputs' finiteness is never used.

  The three programs run to completion leaving their arguments as they were (the generated frames and the reference's
  run); the idealized kernel is the kernel's own text read over the extended reals, so that conjunct is trivial.
-/
import proofs.«163285_j65919158059493_1_alg».proof.Defs
import proofs.«163285_j65919158059493_1_alg».proof.Proof.Gen.Kernel
import proofs.«163285_j65919158059493_1_alg».proof.Proof.Gen.Kernel.Skeleton
import proofs.«163285_j65919158059493_1_alg».proof.Proof.Gen.Kernel.Launch
import proofs.«163285_j65919158059493_1_alg».proof.Proof.Gen.Kernel.Points
import proofs.«163285_j65919158059493_1_alg».proof.Proof.Gen.Kernel.Frame
import proofs.«163285_j65919158059493_1_alg».proof.Proof.Gen.KernelIdeal
import proofs.«163285_j65919158059493_1_alg».proof.Proof.Gen.KernelIdeal.Skeleton
import proofs.«163285_j65919158059493_1_alg».proof.Proof.Gen.KernelIdeal.Launch
import proofs.«163285_j65919158059493_1_alg».proof.Proof.Gen.KernelIdeal.Points
import proofs.«163285_j65919158059493_1_alg».proof.Proof.Gen.KernelIdeal.Frame
import proofs.«163285_j65919158059493_1_alg».proof.Proof.Gen.KernelIdeal.Value
import proofs.«163285_j65919158059493_1_alg».proof.Proof.Gen.ReferenceIdeal
import proofs.«163285_j65919158059493_1_alg».proof.Proof.Gen.Pre_finite_inputs
import proofs.«163285_j65919158059493_1_alg».proof.Proof.ReferenceRun
import proofs.«163285_j65919158059493_1_alg».proof.Proof.ReferenceRead
import proofs.«163285_j65919158059493_1_alg».proof.Proof.ReferenceValue
import proofs.«163285_j65919158059493_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's program, on words, runs to completion and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference runs to completion and leaves its arguments as they were: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten on the way to the extended reals. -/
theorem preserves : Cert.preserves_Kernel_KernelIdeal := trivial

/-- From memories that agree on the three arguments both programs end with the result array at the masked affine map of
    those arguments: the kernel's by its 64 blocks, the reference's stage by stage. -/
theorem algebraic : Cert.algebraic_KernelIdeal_ReferenceIdeal := by
  intro m ρ m' ρ' _ hagree
  refine ⟨fun c => Cert.StrictLower.affine (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v6_eq, Cert.ReferenceIdeal.Affine.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
